-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x10 : Shape := ⟨2, ![4194304, 10]⟩
abbrev S_ : Shape := ⟨0, ![]⟩

class Facts : Prop where
  bcast_S_S4194304x10 : S_.BroadcastsInDim S4194304x10 (![] : Fin 0 → Fin S4194304x10.rank)
  reducesTo_S4194304x10_S_d0_1 : S4194304x10.ReducesTo [0, 1] S_
  h_S_ : 0 < S_.numel

variable [Facts]

def fn {F : FTy → Type} [FloatOps F] (main_arg0 : FVec F S4194304x10 .f32) (main_arg1 : FVec F S4194304x10 .f32) : IVec S_ 1 :=
  let main_v0 : FVec F S4194304x10 .f32 := Host.absf main_arg0
  let main_cst : FVec F S_ .f32 := constant S_ .f32 0x7F800000#32
  let main_v1 : FVec F S4194304x10 .f32 := broadcastInDim S4194304x10 ![] bcast_S_S4194304x10 main_cst
  let main_v2 : IVec S4194304x10 1 := cmpf .olt main_v0 main_v1
  let main_c : IVec S_ 1 := constantI S_ 1 1#1
  let main_v3 : IVec S_ 1 := (fun x v => Host.reduce IntOp.andi x v reducesTo_S4194304x10_S_d0_1 h_S_) main_v2 main_c
  let main_v4 : FVec F S4194304x10 .f32 := Host.absf main_arg1
  let main_cst_0 : FVec F S_ .f32 := constant S_ .f32 0x7F800000#32
  let main_v5 : FVec F S4194304x10 .f32 := broadcastInDim S4194304x10 ![] bcast_S_S4194304x10 main_cst_0
  let main_v6 : IVec S4194304x10 1 := cmpf .olt main_v4 main_v5
  let main_c_1 : IVec S_ 1 := constantI S_ 1 1#1
  let main_v7 : IVec S_ 1 := (fun x v => Host.reduce IntOp.andi x v reducesTo_S4194304x10_S_d0_1 h_S_) main_v6 main_c_1
  let main_v8 : IVec S_ 1 := andi main_v3 main_v7
  main_v8
-- ==== Kernel.lean ====
abbrev S4194304x10 : Shape := ⟨2, ![4194304, 10]⟩
abbrev S1x1 : Shape := ⟨2, ![1, 1]⟩
abbrev S4096x10 : Shape := ⟨2, ![4096, 10]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S4194304x10, .f32⟩
  | .hbm, ⟨1, _⟩ => ⟨S4194304x10, .f32⟩
  | .hbm, ⟨2, _⟩ => ⟨S1x1, .f32⟩
  | .hbm, ⟨3, _⟩ => ⟨S_, .f32⟩
  | .local _ .vmem, ⟨0, _⟩ => ⟨S4096x10, .f32⟩
  | .local _ .vmem, ⟨1, _⟩ => ⟨S4096x10, .f32⟩
  | .local _ .vmem, ⟨2, _⟩ => ⟨S4096x10, .f32⟩
  | .local _ .vmem, ⟨3, _⟩ => ⟨S4096x10, .f32⟩
  | .local _ .vmem, ⟨4, _⟩ => ⟨S1x1, .f32⟩
  | _, _ => ⟨S4194304x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S4096x10_S4096x10_0_0 : ∀ a, (![0, 0] : Fin 2 → Nat) a + S4096x10.size a ≤ S4096x10.size a
  h_S4096x10 : 0 < S4096x10.numel
  reduces_S4096x10_S4096 : S4096x10.Reduces [1] S4096
  shapeCasts_S4096_S4096x1 : S4096.ShapeCasts S4096x1
  broadcasts_S4096x1_S4096x10 : S4096x1.Broadcasts S4096x10
  reduces_S4096x1_S1 : S4096x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x10.size a ≤ S4194304x10.size a
  hwx0_0 : ∀ i : grid0.Coords, EltTy.bits .f32 = 32 ∨ (Rect.block (s := S4194304x10) S4096x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x10.size a ≤ S4194304x10.size a
  hwx0_1 : ∀ i : grid0.Coords, EltTy.bits .f32 = 32 ∨ (Rect.block (s := S4194304x10) S4096x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S4096x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x10 : Shape := ⟨2, ![4194304, 10]⟩
abbrev S_ : Shape := ⟨0, ![]⟩
abbrev S4194304 : Shape := ⟨1, ![4194304]⟩
abbrev S4194304x1 : Shape := ⟨2, ![4194304, 1]⟩

abbrev nBuf : Space → Nat
  | .hbm => 25
  | .vmem => 0
  | .smem => 0
  | _ => 0

abbrev bufTy : (tb : Table) → Fin (tcTables nBuf tb) → BufTy
  | .hbm, ⟨0, _⟩ => ⟨S4194304x10, .f32⟩
  | .hbm, ⟨1, _⟩ => ⟨S4194304x10, .f32⟩
  | .hbm, ⟨2, _⟩ => ⟨S_, .f32⟩
  | .hbm, ⟨3, _⟩ => ⟨S4194304, .f32⟩
  | .hbm, ⟨4, _⟩ => ⟨S_, .f32⟩
  | .hbm, ⟨5, _⟩ => ⟨S4194304, .f32⟩
  | .hbm, ⟨6, _⟩ => ⟨S4194304, .f32⟩
  | .hbm, ⟨7, _⟩ => ⟨S4194304x1, .f32⟩
  | .hbm, ⟨8, _⟩ => ⟨S4194304x10, .f32⟩
  | .hbm, ⟨9, _⟩ => ⟨S4194304x10, .f32⟩
  | .hbm, ⟨10, _⟩ => ⟨S4194304x10, .f32⟩
  | .hbm, ⟨11, _⟩ => ⟨S_, .f32⟩
  | .hbm, ⟨12, _⟩ => ⟨S4194304, .f32⟩
  | .hbm, ⟨13, _⟩ => ⟨S4194304x1, .f32⟩
  | .hbm, ⟨14, _⟩ => ⟨S4194304x1, .f32⟩
  | .hbm, ⟨15, _⟩ => ⟨S4194304x10, .f32⟩
  | .hbm, ⟨16, _⟩ => ⟨S4194304x10, .f32⟩
  | .hbm, ⟨17, _⟩ => ⟨S4194304x10, .f32⟩
  | .hbm, ⟨18, _⟩ => ⟨S_, .f32⟩
  | .hbm, ⟨19, _⟩ => ⟨S4194304, .f32⟩
  | .hbm, ⟨20, _⟩ => ⟨S4194304, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S4194304x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩

abbrev nD : Nat := 1
abbrev τ : Topo := Topo.v7x

variable {F : FTy → Type} [FloatOps F]

class Facts₀ : Prop where
  reducesTo_S4194304x10_S4194304_d1 : S4194304x10.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x10_0_1 : S4194304x1.BroadcastsInDim S4194304x10 (![0, 1] : Fin 2 → Fin S4194304x10.rank)
  reducesTo_S4194304_S_d0 : S4194304.ReducesTo [0] S_

variable [Facts₀]

class Facts : Prop extends Facts₀ where

variable [Facts]
-- ==== Proof.Cases.lean ====
/-
  What one run of the kernel body leaves in the one-element output block, case by case, as a value.

  The body adds the block's partial sum to the running total it finds in the output block; at the first grid point it
  first stores a zero there and reads it back, and at the last grid point it reads the new total back and stores it
  scaled. So with `S` the payload "running total plus this block's partial sum" and `Z` the stored zero:
    * first point:   `S x0 x1 Z`;
    * middle points: `S x0 x1 acc`;
    * last point:    `scale (S x0 x1 acc)`.
-/
import proofs.«166837_j1967095021605_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- A middle point: the one store's payload over the buffers as found. -/
theorem out_B (c : Dev nD) (i : grid0.Coords) (a1 : Memref sig .tc .vmem S4096x10 .f32) (h1 : a1.IsWhole)
    (a2 : Memref sig .tc .vmem S4096x10 .f32) (h2 : a2.IsWhole) (a3 : Memref sig .tc .vmem S1x1 .f32) (h3 : a3.IsWhole)
    (hc0 : ¬cond0_0 i) (hc1 : ¬cond0_1 i) (x0 x1 : Vec F S4096x10 .f32) (xo : Vec F S1x1 .f32) :
    out0_B_2 c i a1 h1 a2 h2 a3 h3 hc0 hc1 x0 x1 xo = k0_pay2 x0 x1 xo := by
  unfold out0_B_2
  rw [View.read_writes_eq_canon _ _ _ (cover0_B_2 c i a1 h1 a2 h2 a3 h3 hc0 hc1 x0 x1 xo)]
  unfold kernelRun0_B
  dsimp only
  rw [View.canon_unit_zero hz]
  simp only [View.readAt_eq_ld, h1.read_unread, h2.read_unread, h3.read_unread, View.ld_unit_zero (S := S4096x10) hz,
    View.ld_unit_zero (S := S1x1) hz]

/-- The first point: the zero is stored, read back, and the payload is stored over it. -/
theorem out_A (c : Dev nD) (i : grid0.Coords) (a1 : Memref sig .tc .vmem S4096x10 .f32) (h1 : a1.IsWhole)
    (a2 : Memref sig .tc .vmem S4096x10 .f32) (h2 : a2.IsWhole) (a3 : Memref sig .tc .vmem S1x1 .f32) (h3 : a3.IsWhole)
    (hc0 : cond0_0 i) (hc1 : ¬cond0_1 i) (x0 x1 : Vec F S4096x10 .f32) :
    out0_A_2 c i a1 h1 a2 h2 a3 h3 hc0 hc1 x0 x1 = k0_pay2 x0 x1 k0_pay1 := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x10) hz]

/-- The last point: the payload is stored, read back, and stored again scaled. -/
theorem out_C (c : Dev nD) (i : grid0.Coords) (a1 : Memref sig .tc .vmem S4096x10 .f32) (h1 : a1.IsWhole)
    (a2 : Memref sig .tc .vmem S4096x10 .f32) (h2 : a2.IsWhole) (a3 : Memref sig .tc .vmem S1x1 .f32) (h3 : a3.IsWhole)
    (hc0 : ¬cond0_0 i) (hc1 : cond0_1 i) (x0 x1 : Vec F S4096x10 .f32) (xo : Vec F S1x1 .f32) :
    out0_C_2 c i a1 h1 a2 h2 a3 h3 hc0 hc1 x0 x1 xo = k0_pay3 (k0_pay2 x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S4096x10) hz,
    View.ld_unit_zero (S := S1x1) hz]

end Cert.KernelIdeal.Cases

end
-- ==== Proof.RowLoss.lean ====
/-
  The loss of one row of ten logits `p` against ten weights `t`, in the two arrangements the programs use, on the
  extended reals.

  With `M = max_k p k` and `L = log (∑_k exp (p k - M))`:
    * the kernel forms  `(M + L) · (∑_k t k) - ∑_k t k · p k`;
    * the reference forms `-(∑_k t k · ((p k - M) - L))`, the weighted sum of the log-softmax, negated.
  Over the reals the two are one number: expand the product `t k · ((p k - M) - L)` and collect `M + L`. On the
  extended reals that expansion needs every entry finite (a product does not distribute over a sum at an infinity),
  so the law is stated for rows of reals. For such a row `M` is a real (a maximum of finitely many reals, at least
  one), each `exp (p k - M)` is a positive real, so is their sum, and its logarithm is a real.
-/
import Idealize.ShloMosaic.PureOps.Ideal
import Mathlib.Data.EReal.Basic
import Mathlib.Algebra.BigOperators.Ring.Finset
import Mathlib.Analysis.SpecialFunctions.Log.Basic

noncomputable section

namespace Cert.RowLoss

open Idealize.ShloMosaic

/-- A finite sum of reals, read in the extended reals, is the sum of the readings. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The running maximum of a row, started at minus infinity. -/
def rowMax (p : Fin 10 → EReal) : EReal := (Finset.univ : Finset (Fin 10)).fold max ⊥ p

/-- The logarithm of the row's sum of exponentials, each shifted by the row's maximum. -/
def rowLog (p : Fin 10 → EReal) : EReal := Ideal.log (∑ k, Ideal.exp (p k - rowMax p))

/-- The kernel's arrangement of a row's loss. -/
def kernelRow (p t : Fin 10 → EReal) : EReal :=
  (rowMax p + rowLog p) * (∑ k, t k) - ∑ k, t k * p k

/-- The reference's arrangement: the weighted sum of the row's log-softmax, negated. -/
def refRow (p t : Fin 10 → EReal) : EReal :=
  -(∑ k, t k * ((p k - rowMax p) - rowLog p))

/-- A maximum started at minus infinity over a set of reals is minus infinity (over the empty set) or a real. -/
theorem fold_max_coe {ι : Type} [DecidableEq ι] (p : ι → ℝ) (s : Finset ι) :
    (s = ∅ ∧ s.fold max (⊥ : EReal) (fun k => (p k : EReal)) = ⊥)
      ∨ ∃ m : ℝ, s.fold max (⊥ : EReal) (fun k => (p k : EReal)) = (m : EReal) := by
  induction s using Finset.induction_on with
  | empty => exact Or.inl ⟨rfl, rfl⟩
  | insert a s ha ih =>
    refine Or.inr ?_
    rw [Finset.fold_insert ha]
    rcases ih with ⟨_, h⟩ | ⟨m, h⟩
    · exact ⟨p a, by rw [h]; exact max_eq_left bot_le⟩
    · exact ⟨max (p a) m, by rw [h]; exact (EReal.coe_strictMono.monotone.map_max).symm⟩

/-- The maximum of a row of reals is a real. -/
theorem rowMax_real (p : Fin 10 → ℝ) : ∃ m : ℝ, rowMax (fun k => (p k : EReal)) = (m : EReal) := by
  rcases fold_max_coe p (Finset.univ : Finset (Fin 10)) with ⟨h, _⟩ | h
  · exact absurd h Finset.univ_nonempty.ne_empty
  · exact h

/-- THE LAW OF A ROW: on a row of reals the reference's arrangement is the kernel's. -/
theorem refRow_eq_kernelRow (p t : Fin 10 → ℝ) :
    refRow (fun k => (p k : EReal)) (fun k => (t k : EReal))
      = kernelRow (fun k => (p k : EReal)) (fun k => (t k : EReal)) := by
  obtain ⟨m, hm⟩ := rowMax_real p
  have hpos : 0 < ∑ k : Fin 10, Real.exp (p k - m) :=
    Finset.sum_pos (fun k _ => Real.exp_pos _) Finset.univ_nonempty
  have hlog : rowLog (fun k => (p k : EReal)) = ((Real.log (∑ k : Fin 10, Real.exp (p k - m)) : ℝ) : EReal) := by
    unfold rowLog
    rw [hm]
    simp only [← EReal.coe_sub, Ideal.exp_coe, ← coe_sum, Ideal.log_coe]
    rw [if_neg (not_le.mpr hpos)]
  unfold refRow kernelRow
  rw [hm, hlog]
  simp only [← EReal.coe_sub, ← EReal.coe_mul, ← coe_sum, ← EReal.coe_add, ← EReal.coe_neg]
  refine congrArg _ ?_
  rw [Finset.mul_sum, ← Finset.sum_sub_distrib, ← Finset.sum_neg_distrib]
  exact Finset.sum_congr rfl fun k _ => by ring

end Cert.RowLoss

end
-- ==== Proof.Consts.lean ====
/-
  The float constants the two programs spell, as the extended reals their patterns denote: minus infinity
  (the start of a running maximum), the divisor 2^22 = 4194304 (the number of rows) and its reciprocal 2^-22,
  which is again a float: dividing by the one and multiplying by the other are the same map.
-/
import Idealize.ShloMosaic.PureOps.Ideal

noncomputable section

namespace Cert.Consts

open Idealize.ShloMosaic

/-- The pattern of minus infinity denotes the bottom of the extended reals. -/
theorem ofBits_neg_inf : Ideal.ofBits .f32 0xFF800000#32 = (⊥ : EReal) := by
  simp [Ideal.ofBits, Ideal.ieee]

/-- The pattern of plus infinity denotes the top of the extended reals. -/
theorem ofBits_pos_inf : Ideal.ofBits .f32 0x7F800000#32 = (⊤ : EReal) := by
  simp [Ideal.ofBits, Ideal.ieee]

/-- The reference's divisor denotes the real 4194304, the number of rows. -/
theorem ofBits_rows : Ideal.ofBits .f32 0x4A800000#32 = ((4194304 : ℝ) : EReal) := by
  simp [Ideal.ofBits, Ideal.ieee, -EReal.coe_mul]; norm_num

/-- The kernel's factor denotes the real 1/4194304: a power of two, so exactly a float. -/
theorem ofBits_inv_rows : Ideal.ofBits .f32 0x34800000#32 = ((1 / 4194304 : ℝ) : EReal) := by
  simp [Ideal.ofBits, Ideal.ieee, -EReal.coe_mul]; norm_num

/-- Dividing by the number of rows is multiplying by its reciprocal, on every extended real. -/
theorem div_rows (x : EReal) :
    Ideal.div x (Ideal.ofBits .f32 0x4A800000#32) = x * Ideal.ofBits .f32 0x34800000#32 := by
  rw [ofBits_rows, ofBits_inv_rows]
  exact Ideal.div_coe (by norm_num) x

end Cert.Consts

end
-- ==== Proof.BlockSum.lean ====
/-
  The kernel body's arithmetic on one block of 4096 rows, read on the extended reals.

  The payload the body stores is `acc + ∑_r rowLoss r`: the running total it found plus the sum, over the block's 4096
  rows, of each row's loss in the kernel's arrangement (Proof/RowLoss.lean). Per row the body takes the row's maximum
  (a running maximum from minus infinity), the sum of the shifted exponentials, its logarithm, the sum of the weights
  and the sum of weight times logit; the per-row columns are [4096] vectors viewed as [4096, 1], and the row maximum is
  spread back over the ten columns before the subtraction. The scaling payload of the last grid point multiplies by
  the float 2^-22.
-/
import proofs.«166837_j1967095021605_1_alg».proof.Proof.Gen.KernelIdeal.Skeleton
import proofs.«166837_j1967095021605_1_alg».proof.Proof.RowLoss
import proofs.«166837_j1967095021605_1_alg».proof.Proof.Consts
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.BlockSum

open Cert.KernelIdeal Cert.KernelIdeal.Gen Cert.RowLoss

/-! ## The layout steps, read at an index -/

/-- A [4096] vector viewed as a [4096, 1] column reads row `r` at `(r, 0)`. -/
theorem col_apply (v : FVec Ideal S4096 .f32) (r : Fin 4096) (z : Fin 1) :
    shapeCast S4096x1 v shapeCasts_S4096_S4096x1 (ix2 r z) = v (ix1 r) := by
  refine shapeCast_apply v shapeCasts_S4096_S4096x1 (ix2 r z) (ix1 r) ?_
  rw [Shape.rowMajor_val_one, Shape.rowMajor_val_two]
  show r.val = r.val * 1 + z.val
  have := z.isLt
  omega

/-- A [4096, 1] column spread over ten columns reads `(r, 0)` at every `(r, k)`. -/
theorem spread_apply (v : FVec Ideal S4096x1 .f32) (r : Fin 4096) (k : Fin 10) :
    broadcastTo S4096x10 v broadcasts_S4096x1_S4096x10 (ix2 r k) = v (ix2 r (0 : Fin 1)) := by
  refine broadcastTo_apply v broadcasts_S4096x1_S4096x10 (ix2 r k) (ix2 r (0 : Fin 1)) fun a => ?_
  match a with
  | ⟨0, _⟩ => rfl
  | ⟨1, _⟩ => rfl

/-- A one-element vector viewed as a [1, 1] block reads its one element everywhere. -/
theorem unit_apply (v : FVec Ideal S1 .f32) (j : S1x1.Idx) :
    shapeCast S1x1 v shapeCasts_S1_S1x1 j = v (ix1 (0 : Fin 1)) := by
  refine shapeCast_apply v shapeCasts_S1_S1x1 j (ix1 (0 : Fin 1)) ?_
  rw [Shape.rowMajor_val_one, Shape.rowMajor_val_two]
  have h0 : (j 0).val < 1 := (j 0).isLt
  have h1 : (j 1).val < 1 := (j 1).isLt
  show (0 : Nat) = (j 0).val * 1 + (j 1).val
  omega

/-! ## The reductions, read at an index -/

/-- The sum along a row of a [4096, 10] vector, at row `r`. -/
theorem laneSum_apply (v : FVec Ideal S4096x10 .f32) (r : Fin 4096) (hφ : FKind.Formats .f32)
    (hacc : (0x00000000#32 : BitVec 32) = 0x00000000#32) :
    multiReduction .add [1] S4096 v 0x00000000#32 reduces_S4096x10_S4096 hφ hacc (ix1 r)
      = ∑ k : Fin 10, v (ix2 r k) := by
  refine (Ideal.multiReduction_add_single v 0x00000000#32 reduces_S4096x10_S4096 hφ hacc (ix1 r)).trans ?_
  exact Finset.sum_congr rfl fun k _ => congrArg v (funext fun a => Fin.ext (by
    match a with
    | ⟨0, _⟩ => rfl
    | ⟨1, _⟩ => rfl))

/-- The maximum along a row of a [4096, 10] vector, at row `r`: the running maximum from minus infinity. -/
theorem laneMax_apply (v : FVec Ideal S4096x10 .f32) (r : Fin 4096) (hφ : FKind.Formats .f32)
    (hacc : (0xFF800000#32 : BitVec 32) = 0xFF800000#32) :
    multiReduction .maximumf [1] S4096 v 0xFF800000#32 reduces_S4096x10_S4096 hφ hacc (ix1 r)
      = rowMax fun k => v (ix2 r k) := by
  refine (Ideal.multiReduction_maximumf_single v 0xFF800000#32 reduces_S4096x10_S4096 hφ hacc (ix1 r)).trans ?_
  unfold rowMax
  rw [Ideal.ofBits_def, Cert.Consts.ofBits_neg_inf]
  refine congrArg (Finset.fold max ⊥ · Finset.univ) (funext fun k => ?_)
  exact congrArg v (funext fun a => Fin.ext (by
    match a with
    | ⟨0, _⟩ => rfl
    | ⟨1, _⟩ => rfl))

/-- The sum down the one column of a [4096, 1] vector. -/
theorem colSum_apply (v : FVec Ideal S4096x1 .f32) (hφ : FKind.Formats .f32)
    (hacc : (0x00000000#32 : BitVec 32) = 0x00000000#32) :
    multiReduction .add [0] S1 v 0x00000000#32 reduces_S4096x1_S1 hφ hacc (ix1 (0 : Fin 1))
      = ∑ r : Fin 4096, v (ix2 r (0 : Fin 1)) := by
  refine (Ideal.multiReduction_add_single v 0x00000000#32 reduces_S4096x1_S1 hφ hacc (ix1 (0 : Fin 1))).trans ?_
  exact Finset.sum_congr rfl fun r _ => congrArg v (funext fun a => Fin.ext (by
    match a with
    | ⟨0, _⟩ => rfl
    | ⟨1, _⟩ => rfl))

/-! ## The payloads -/

theorem log_apply {s : Shape} (v : FVec Ideal s .f32) (i : s.Idx) : log v i = Ideal.log (v i) := rfl
theorem exp_apply {s : Shape} (v : FVec Ideal s .f32) (i : s.Idx) : exp v i = Ideal.exp (v i) := rfl

/-- THE BLOCK'S PAYLOAD: the running total found, plus the sum over the block's rows of each row's loss. -/
theorem pay2_apply (x0 x1 : Vec Ideal S4096x10 .f32) (acc : Vec Ideal S1x1 .f32) (j : S1x1.Idx) :
    k0_pay2 (F := Ideal) x0 x1 acc j
      = acc j + ∑ r : Fin 4096, kernelRow (fun k => x0 (ix2 r k)) (fun k => x1 (ix2 r k)) := by
  unfold k0_pay2
  rw [addf_apply, shapeCast_self, unit_apply, colSum_apply]
  refine congrArg (acc j + ·) (Finset.sum_congr rfl fun r _ => ?_)
  simp only [subf_apply, mulf_apply, addf_apply, log_apply, col_apply]
  rw [laneSum_apply, laneSum_apply, laneSum_apply]
  simp only [exp_apply, subf_apply, mulf_apply, spread_apply, col_apply]
  rw [laneMax_apply]
  rfl

/-- The zero the first grid point stores. -/
theorem pay1_apply (j : S1x1.Idx) : k0_pay1 (F := Ideal) j = 0 :=
  Ideal.ofBits_zero_f32

/-- The last grid point's payload: the total, scaled by the float 2^-22. -/
theorem pay3_apply (v : Vec Ideal S1x1 .f32) (j : S1x1.Idx) :
    k0_pay3 (F := Ideal) v j = v j * Ideal.ofBits .f32 0x34800000#32 := by
  unfold k0_pay3
  rw [mulf_apply, shapeCast_self]
  rfl

end Cert.KernelIdeal.BlockSum

end
-- ==== Proof.Accumulate.lean ====
/-
  The running total across the grid.

  The output block is never moved, so what the body leaves in it at one grid point is what it finds at the next. With
  `B t` the sum of the row losses of the block of 4096 rows at grid point `t`:
    after point 0 the block holds          `B 0`  (zero, stored and read back, plus `B 0`);
    after point n, 0 < n < 1023,           `B 0 + … + B n`;
    after the last point, 1023,            `(B 0 + … + B 1023) · 2^-22`.
  The partial sums are written over the naturals, `B` extended by zero beyond the grid, so that the induction on the
  point is an induction on a natural number and each step adds one term to a sum over an initial segment.
-/
import proofs.«166837_j1967095021605_1_alg».proof.Proof.Cases
import proofs.«166837_j1967095021605_1_alg».proof.Proof.BlockSum

noncomputable section

open Idealize.ShloMosaic Idealize.ShloMosaic.TcCoe Idealize.SL.Sem Idealize.ShloMosaic.ValueIdx

namespace Cert.KernelIdeal.Accumulate

open Cert.KernelIdeal Cert.KernelIdeal.Gen Cert.RowLoss

variable (m : (ℓ : Loc nD τ sig) → Buf (Elt Ideal) ℓ)

/-- The sum of the row losses of the block at grid point `t`: the logits' block against the weights' block. -/
def blockLoss (c : Dev nD) (t : Fin cfg0.N) : EReal :=
  ∑ r : Fin 4096, kernelRow (fun k => (iblk m c 0 t : Vec Ideal S4096x10 .f32) (ix2 r k))
    (fun k => (iblk m c 1 t : Vec Ideal S4096x10 .f32) (ix2 r k))

/-- The same over the naturals: zero beyond the grid. -/
def blockLossN (c : Dev nD) (n : ℕ) : EReal := if h : n < cfg0.N then blockLoss m c ⟨n, h⟩ else 0

/-- The first point leaves its block's loss. -/
theorem step_first (c : Dev nD) (t : Fin cfg0.N) (h0 : t.val % 1024 = 0) (h1 : ¬t.val % 1024 = 1023) (j : S1x1.Idx) :
    outsAt0 m c t.val t.isLt j = blockLoss m c t := by
  rw [outsAt0_A m c t h0 h1]
  refine (congrFun (Cases.out_A (F := Ideal) c (grid0.coords t) (ms0_0 t) (hs0_0 t) (ms0_1 t) (hs0_1 t) (ms0_2 t) (hs0_2 t)
    ((hcond0_0 t).mpr h0) (fun h => h1 ((hcond0_1 t).mp h)) (iblk m c 0 t) (iblk m c 1 t)) j).trans ?_
  refine (BlockSum.pay2_apply (iblk m c 0 t) (iblk m c 1 t) (k0_pay1 (F := Ideal)) j).trans ?_
  rw [BlockSum.pay1_apply, zero_add]
  rfl

/-- A middle point adds its block's loss to what the point before left. -/
theorem step_middle (c : Dev nD) (t : Fin cfg0.N) (h0 : ¬t.val % 1024 = 0) (h1 : ¬t.val % 1024 = 1023) (j : S1x1.Idx) :
    outsAt0 m c t.val t.isLt j
      = outsAt0 m c (t.val - 1) (Nat.lt_of_le_of_lt (Nat.sub_le _ _) t.isLt) j + blockLoss m c t := by
  rw [outsAt0_B m c t h0 h1]
  refine (congrFun (Cases.out_B (F := Ideal) c (grid0.coords t) (ms0_0 t) (hs0_0 t) (ms0_1 t) (hs0_1 t) (ms0_2 t) (hs0_2 t)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt))) j).trans ?_
  exact BlockSum.pay2_apply (iblk m c 0 t) (iblk m c 1 t) _ j

/-- The last point adds its block's loss and scales the total. -/
theorem step_last (c : Dev nD) (t : Fin cfg0.N) (h0 : ¬t.val % 1024 = 0) (h1 : t.val % 1024 = 1023) (j : S1x1.Idx) :
    outsAt0 m c t.val t.isLt j
      = (outsAt0 m c (t.val - 1) (Nat.lt_of_le_of_lt (Nat.sub_le _ _) t.isLt) j + blockLoss m c t)
          * Ideal.ofBits .f32 0x34800000#32 := by
  rw [outsAt0_C m c t h0 h1]
  refine (congrFun (Cases.out_C (F := Ideal) c (grid0.coords t) (ms0_0 t) (hs0_0 t) (ms0_1 t) (hs0_1 t) (ms0_2 t) (hs0_2 t)
    (fun h => h0 ((hcond0_0 t).mp h)) ((hcond0_1 t).mpr h1) (iblk m c 0 t) (iblk m c 1 t)
    (outsAt0 m c (t.val - 1) (Nat.lt_of_le_of_lt (Nat.sub_le _ _) t.isLt))) j).trans ?_
  refine (BlockSum.pay3_apply _ j).trans ?_
  exact congrArg (· * Ideal.ofBits .f32 0x34800000#32) (BlockSum.pay2_apply (iblk m c 0 t) (iblk m c 1 t) _ j)

/-- Before the last point the output block holds the partial sum of the blocks' losses so far. -/
theorem partial_eq (c : Dev nD) (n : ℕ) : ∀ (h : n < cfg0.N), n < 1023 → ∀ j : S1x1.Idx,
    outsAt0 m c n h j = ∑ s ∈ Finset.range (n + 1), blockLossN m c s := by
  induction n with
  | zero =>
    intro h _ j
    rw [Finset.sum_range_one]
    refine (step_first m c ⟨0, h⟩ rfl (by show ¬(0 % 1024 = 1023); decide) j).trans ?_
    unfold blockLossN
    rw [dif_pos h]
  | succ n ih =>
    intro h hn j
    rw [Finset.sum_range_succ, ← ih (Nat.lt_of_succ_lt h) (by omega) j]
    refine (step_middle m c ⟨n + 1, h⟩ (by show ¬((n + 1) % 1024 = 0); omega) (by show ¬((n + 1) % 1024 = 1023); omega) j).trans ?_
    unfold blockLossN
    rw [dif_pos h]
    rfl

/-- After the last point it holds the sum of all the blocks' losses, scaled. -/
theorem last_eq (c : Dev nD) (h : 1023 < cfg0.N) (j : S1x1.Idx) :
    outsAt0 m c 1023 h j = (∑ s ∈ Finset.range 1024, blockLossN m c s) * Ideal.ofBits .f32 0x34800000#32 := by
  refine (step_last m c ⟨1023, h⟩ (by show ¬(1023 % 1024 = 0); decide) (by show 1023 % 1024 = 1023; rfl) j).trans ?_
  refine congrArg (· * Ideal.ofBits .f32 0x34800000#32) ?_
  rw [show (1024 : ℕ) = 1022 + 1 + 1 from rfl, Finset.sum_range_succ,
    ← partial_eq m c 1022 (Nat.lt_of_succ_lt h) (by decide) j]
  unfold blockLossN
  rw [dif_pos h]
  rfl

end Cert.KernelIdeal.Accumulate

end
-- ==== Proof.KernelValue.lean ====
/-
  The kernel's result, as a value of the argument arrays.

  The output block is written back once, after the last grid point, and it is the whole [1, 1] result array; the host then
  views that array as a scalar. So the scalar the kernel returns is the scaled total of Proof/Accumulate.lean. A block of
  either input at grid point `t` is rows `4096 t … 4096 t + 4095` of its array (the index map sends `t` to block
  `(t, 0)`), so the total is a sum over grid points and rows within the block of the losses of the arrays' own rows.
-/
import proofs.«166837_j1967095021605_1_alg».proof.Proof.Accumulate
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.RowLoss

variable (m : (ℓ : Loc nD τ sig) → Buf (Elt Ideal) ℓ) (ρ : Dev nD → PrngReg)

/-- The scaled total: the sum of all 1024 blocks' losses, times the float 2^-22. -/
def total (c : Dev nD) : EReal :=
  (∑ s ∈ Finset.range 1024, Accumulate.blockLossN m c s) * Ideal.ofBits .f32 0x34800000#32

/-- The [1, 1] result array holding it. -/
abbrev result (c : Dev nD) : Buf (Elt Ideal) ((c : Thread nD τ).loc main_v0) := fun _ => total m c

theorem last_lt : 1023 < cfg0.N := by rw [show cfg0.N = 1024 from N_0]; decide

/-- The last grid point. -/
abbrev tLast : Fin cfg0.N := ⟨1023, last_lt⟩

/-- The one write-back, after the last point, writes the scaled total: block (0, 0) of a [1, 1] array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 1024 := N_0
  have h3 : t.val = 1023 := by have := (flush0_2 t).mp hf; have := t.isLt; omega
  obtain rfl : t = tLast := Fin.ext h3
  show (cfg0.win 2).cut (grid0.coords tLast) ((dats m 0 c).after 2 tLast) = _
  rw [after0_2, show outsAt0 m c tLast.val tLast.isLt = result m c from funext (Accumulate.last_eq m c last_lt)]
  have hz' : (fun a => win0_2.index tLast a * main_v0.ty.shape.size a) = fun _ => 0 :=
    funext fun a => by fin_cases a <;> decide +kernel
  exact (Memref.read_access_unit_zero (Elt Ideal) main_v0 hz' (fun a => by rw [congrFun hz' a]; simp) (result m c)).symm

/-- So the result array ends holding the scaled total: the last point's block covers it. -/
theorem final_eq (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 1 from by decide +kernel]
        omega⟩

/-- The host's view of the [1, 1] array as a scalar holds the scaled total. -/
theorem tail_eq (c : Dev nD) :
    Pipeline.afterTail₀ cfgs (dats m) 0 (V0 m) [hostOps1] c main_v1 = fun _ => total m c := by
  unfold Pipeline.afterTail₀
  show StableHlo.after hostOps1 _ (Proc.devRef .tc main_v1) = _
  after_results
  funext i
  have hA : Pipeline.withArrays (cfgs 0).spec c (V0 m c) (fun w => (dats m 0 c).arrAt w (cfgs 0).N) (Proc.devRef .tc main_v0)
      = result m c :=
    (Pipeline.withArrays_arr spec0 launch0.win.arr_inj c _ _ 2).trans (final_eq m c)
  rw [hA]
  rfl

/-- The output's array bypasses nothing: the scalar result is one of the buffers the region does not stage. -/
theorem result_mem : main_v1 ∈ Pipeline.restRefs sig (cfgs 0).spec :=
  Pipeline.mem_restRefs_of main_v1 rfl (fun w => by fin_cases w <;> decide)

/-- THE KERNEL'S RUN, READ: every execution terminates with the scalar result at the scaled total and the two argument
    arrays unchanged. -/
theorem run : θ_run defs (onTc (τ := τ) (main (F := Ideal))) ⟨m, fun _ => 0, ρ⟩ fun r => ∀ c : Dev nD,
      r.2.mem ((c.tc : Thread nD τ).loc main_v1) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.RefRun.lean ====
/-
  The reference program, run: every execution terminates with the result buffer at the mean loss, written as a chain of
  named stages of the two argument arrays, and the arguments unchanged.

  The stages, for logits `x` and weights `t` (both [4194304, 10]):
    rowMaxes x     each row's maximum (a running maximum from minus infinity, and once more against minus infinity)
    shifted x      x minus its row's maximum
    logSums x      the logarithm of each row's sum of exponentials of the shifted logits, as a [4194304, 1] column
    logSoftmax x   the shifted logits minus their row's logarithm
    rowLosses x t  minus each row's sum of t times logSoftmax x
    meanLoss x t   the sum of all row losses divided by the float 4194304

  The call's operations write through typed references whose contents are transported along an equation of buffer
  types; a transport there and back is the identity (`ofBuf_toBuf`), and at a literal reference whose type is the
  value's by computation the transport is the identity (`toBuf_result`, `ofBuf_logits`).
-/
import proofs.«166837_j1967095021605_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Each row's maximum. -/
def rowMaxes (x : (⟨S4194304x10, .f32⟩ : BufTy).Contents (Elt F)) : (⟨S4194304, .f32⟩ : BufTy).Contents (Elt F) :=
  maximumf (broadcastInDim S4194304 ![] bcast_S_S4194304 (constant S_ .f32 0xFF800000#32))
    (Host.reduce FloatOps.maximumf x (constant S_ .f32 0xFF800000#32) reducesTo_S4194304x10_S4194304_d1 h_S_)

/-- A per-row vector as a one-column matrix. -/
def col (v : (⟨S4194304, .f32⟩ : BufTy).Contents (Elt F)) : (⟨S4194304x1, .f32⟩ : BufTy).Contents (Elt F) :=
  broadcastInDim S4194304x1 ![0] bcast_S4194304_S4194304x1_0 v

/-- A one-column matrix spread over the ten columns. -/
def wide (w : (⟨S4194304x1, .f32⟩ : BufTy).Contents (Elt F)) : (⟨S4194304x10, .f32⟩ : BufTy).Contents (Elt F) :=
  broadcastInDim S4194304x10 ![0, 1] bcast_S4194304x1_S4194304x10_0_1 w

/-- The logits minus their row's maximum. -/
def shifted (x : (⟨S4194304x10, .f32⟩ : BufTy).Contents (Elt F)) : (⟨S4194304x10, .f32⟩ : BufTy).Contents (Elt F) :=
  subf x (wide (col (rowMaxes x)))

/-- The logarithm of each row's sum of exponentials of the shifted logits. -/
def logSums (x : (⟨S4194304x10, .f32⟩ : BufTy).Contents (Elt F)) : (⟨S4194304x1, .f32⟩ : BufTy).Contents (Elt F) :=
  Host.log (col (Host.reduceAdd (Host.exp (shifted x)) (constant S_ .f32 0x00000000#32) reducesTo_S4194304x10_S4194304_d1 h_S_))

/-- The log-softmax of each row. -/
def logSoftmax (x : (⟨S4194304x10, .f32⟩ : BufTy).Contents (Elt F)) : (⟨S4194304x10, .f32⟩ : BufTy).Contents (Elt F) :=
  subf (shifted x) (wide (logSums x))

/-- Each row's loss: minus the weighted sum of its log-softmax. -/
def rowLosses (x t : (⟨S4194304x10, .f32⟩ : BufTy).Contents (Elt F)) : (⟨S4194304, .f32⟩ : BufTy).Contents (Elt F) :=
  Host.negf (Host.reduceAdd (mulf t (logSoftmax x)) (constant S_ .f32 0x00000000#32) reducesTo_S4194304x10_S4194304_d1 h_S_)

/-- The mean of the row losses. -/
def meanLoss (x t : (⟨S4194304x10, .f32⟩ : BufTy).Contents (Elt F)) : (⟨S_, .f32⟩ : BufTy).Contents (Elt F) :=
  Host.divf (Host.reduceAdd (rowLosses x t) (constant S_ .f32 0x00000000#32) reducesTo_S4194304_S_d0 h_S_)
    (constant S_ .f32 0x4A800000#32)

/-! ## The program as a list of operations -/

/-- The reference's twenty-three operations in program order: the fifteen of the log-softmax it calls (row maximum, shift, exponential,
    row sum, logarithm, second shift) stand where the call stands, then the product with the weights, the row sums, the negation, the
    sum over all rows and the division by the number of rows. -/
abbrev ops : List (HloOp τ sig (Elt F)) :=
  [ TRef.nullary (TRef.of (T := ⟨S_, .f32⟩) main_call0_cst) (constant S_ .f32 0xFF800000#32),
    TRef.binary (TRef.of (T := ⟨S4194304x10, .f32⟩) main_arg0) (TRef.of (T := ⟨S_, .f32⟩) main_call0_cst) (TRef.of (T := ⟨S4194304, .f32⟩) main_call0_v0) (fun x v => Host.reduce FloatOps.maximumf x v reducesTo_S4194304x10_S4194304_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4194304, .f32⟩) main_call0_v1) (broadcastInDim S4194304 ![] bcast_S_S4194304),
    TRef.binary (TRef.of (T := ⟨S4194304, .f32⟩) main_call0_v1) (TRef.of (T := ⟨S4194304, .f32⟩) main_call0_v0) (TRef.of (T := ⟨S4194304, .f32⟩) main_call0_v2) maximumf,
    TRef.unary (TRef.of (T := ⟨S4194304, .f32⟩) main_call0_v2) (TRef.of (T := ⟨S4194304x1, .f32⟩) main_call0_v3) (broadcastInDim S4194304x1 ![0] bcast_S4194304_S4194304x1_0),
    TRef.unary (TRef.of (T := ⟨S4194304x1, .f32⟩) main_call0_v3) (TRef.of (T := ⟨S4194304x10, .f32⟩) main_call0_v4) (broadcastInDim S4194304x10 ![0, 1] bcast_S4194304x1_S4194304x10_0_1),
    TRef.binary (TRef.of (T := ⟨S4194304x10, .f32⟩) main_arg0) (TRef.of (T := ⟨S4194304x10, .f32⟩) main_call0_v4) (TRef.of (T := ⟨S4194304x10, .f32⟩) main_call0_v5) subf,
    TRef.unary (TRef.of (T := ⟨S4194304x10, .f32⟩) main_call0_v5) (TRef.of (T := ⟨S4194304x10, .f32⟩) main_call0_v6) Host.exp,
    TRef.nullary (TRef.of (T := ⟨S_, .f32⟩) main_call0_cst_1) (constant S_ .f32 0x00000000#32),
    TRef.binary (TRef.of (T := ⟨S4194304x10, .f32⟩) main_call0_v6) (TRef.of (T := ⟨S_, .f32⟩) main_call0_cst_1) (TRef.of (T := ⟨S4194304, .f32⟩) main_call0_v7) (fun x v => Host.reduceAdd x v reducesTo_S4194304x10_S4194304_d1 h_S_),
    TRef.unary (TRef.of (T := ⟨S4194304, .f32⟩) main_call0_v7) (TRef.of (T := ⟨S4194304x1, .f32⟩) main_call0_v8) (broadcastInDim S4194304x1 ![0] bcast_S4194304_S4194304x1_0),
    TRef.unary (TRef.of (T := ⟨S4194304x1, .f32⟩) main_call0_v8) (TRef.of (T := ⟨S4194304x1, .f32⟩) main_call0_v9) Host.log,
    TRef.unary (TRef.of (T := ⟨S4194304x1, .f32⟩) main_call0_v9) (TRef.of (T := ⟨S4194304x10, .f32⟩) main_call0_v10) (broadcastInDim S4194304x10 ![0, 1] bcast_S4194304x1_S4194304x10_0_1),
    TRef.binary (TRef.of (T := ⟨S4194304x10, .f32⟩) main_call0_v5) (TRef.of (T := ⟨S4194304x10, .f32⟩) main_call0_v10) (TRef.of (T := ⟨S4194304x10, .f32⟩) main_v0) subf,
    binary main_arg1 main_v0 main_v1 (mulf : (⟨S4194304x10, .f32⟩ : BufTy).Contents (Elt F) → (⟨S4194304x10, .f32⟩ : BufTy).Contents (Elt F) → (⟨S4194304x10, .f32⟩ : BufTy).Contents (Elt F)),
    nullary main_cst (constant S_ .f32 0x00000000#32),
    binary main_v1 main_cst main_v2 ((fun x v => Host.reduceAdd x v reducesTo_S4194304x10_S4194304_d1 h_S_) : (⟨S4194304x10, .f32⟩ : BufTy).Contents (Elt F) → (⟨S_, .f32⟩ : BufTy).Contents (Elt F) → (⟨S4194304, .f32⟩ : BufTy).Contents (Elt F)),
    unary main_v2 main_v3 (Host.negf : (⟨S4194304, .f32⟩ : BufTy).Contents (Elt F) → (⟨S4194304, .f32⟩ : BufTy).Contents (Elt F)),
    nullary main_cst_0 (constant S_ .f32 0x00000000#32),
    binary main_v3 main_cst_0 main_v4 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_1 (constant S_ .f32 0x4A800000#32),
    binary main_v4 main_cst_1 main_v5 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., unary_bufs_sub .., nullary_bufs_sub .., binary_bufs_sub .., nullary_bufs_sub .., binary_bufs_sub ..⟩

/-! ## Transports along a typed reference -/

/-- Contents carried to a typed reference's buffer and back are the contents. -/
theorem ofBuf_toBuf {T : BufTy} (x : TRef sig T) (v : T.Contents (Elt F)) : x.ofBuf (x.toBuf v) = v := by
  obtain ⟨r, h, h2, h3⟩ := x
  subst h
  rfl

/-- At the call's result buffer, whose type is the value's by computation, the transport is the identity. -/
theorem toBuf_result (h : main_v0.ty = ⟨S4194304x10, .f32⟩) (h2 h3) (v : (⟨S4194304x10, .f32⟩ : BufTy).Contents (Elt F)) :
    (TRef.of (T := ⟨S4194304x10, .f32⟩) main_v0 h h2 h3).toBuf v = v := rfl

/-- At the logits' buffer likewise. -/
theorem ofBuf_logits (h : main_arg0.ty = ⟨S4194304x10, .f32⟩) (h2 h3) (v : (⟨S4194304x10, .f32⟩ : BufTy).Contents (Elt F)) :
    (TRef.of (T := ⟨S4194304x10, .f32⟩) main_arg0 h h2 h3).ofBuf v = v := rfl

/-! ## The run -/

set_option maxHeartbeats 2000000 in
/-- On every device, for any float values, from any memory with zero counters: every weakly fair execution of the
    reference terminates with its result at the mean loss of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = meanLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (by
        after_results
        simp only [ofBuf_toBuf, toBuf_result, ofBuf_logits, meanLoss, rowLosses, logSoftmax, logSums, shifted, wide, col,
          rowMaxes]),
      (h c main_arg0).trans (by after_results <;> rfl),
      (h c main_arg1).trans (by after_results <;> rfl)⟩)
    (run_seq scopedRefs_eq scopedSems_eq defs main (fun _ => ops) main_eq (fun _ => ops_sub) m ρ)

end Cert.ReferenceIdeal.RefRun

end
-- ==== Proof.RefValue.lean ====
/-
  The reference's stages read at an index, on the extended reals.

  Row `n` of the logits `x` is `fun k => x (n, k)`, of the weights `t` likewise. Stage by stage:
    rowMaxes x at n       is the row's running maximum from minus infinity (taking the maximum with minus infinity once
                          more changes nothing);
    shifted x at (n, k)   is x (n, k) minus that maximum;
    logSums x at (n, 0)   is the logarithm of the row's sum of exponentials of the shifted logits;
    rowLosses x t at n    is the reference's arrangement of the row's loss (Proof/RowLoss.lean);
    meanLoss x t          is the sum of all row losses, divided by the number of rows.
  A sum on the host starts from a stored zero, which adds nothing.
-/
import proofs.«166837_j1967095021605_1_alg».proof.Proof.RefRun
import proofs.«166837_j1967095021605_1_alg».proof.Proof.RowLoss
import proofs.«166837_j1967095021605_1_alg».proof.Proof.Consts
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.RefRun Cert.RowLoss

/-! ## The pointwise host operations, read at an index -/

theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl
theorem hostNeg_apply {s : Shape} (v : FVec Ideal s .f32) (i : s.Idx) : Host.negf v i = -(v i) := rfl
theorem hostDiv_apply {s : Shape} (a b : FVec Ideal s .f32) (i : s.Idx) : Host.divf a b i = Ideal.div (a i) (b i) := rfl

/-- Equal dividends give equal quotients. -/
theorem div_congr {a b c : EReal} (h : a = b) : Ideal.div a c = Ideal.div b c := by rw [h]

/-! ## The layout steps -/

/-- A per-row vector as a one-column matrix reads row `n` at `(n, 0)`. -/
theorem col_apply (v : (⟨S4194304, .f32⟩ : BufTy).Contents (Elt Ideal)) (n : Fin 4194304) (z : Fin 1) :
    col v (ix2 n z) = v (ix1 n) := by
  unfold col
  exact broadcastInDim_apply _ bcast_S4194304_S4194304x1_0 v (ix2 n z) (ix1 n) (fun a => match a with
    | ⟨0, _⟩ => by show n.val = if (4194304 : Nat) = 1 then 0 else n.val; rw [if_neg (by decide)])

/-- A one-column matrix spread over the ten columns reads `(n, 0)` at every `(n, k)`. -/
theorem wide_apply (w : (⟨S4194304x1, .f32⟩ : BufTy).Contents (Elt Ideal)) (n : Fin 4194304) (k : Fin 10) :
    wide w (ix2 n k) = w (ix2 n (0 : Fin 1)) := by
  unfold wide
  exact broadcastInDim_apply _ bcast_S4194304x1_S4194304x10_0_1 w (ix2 n k) (ix2 n (0 : Fin 1)) (fun a => match a with
    | ⟨0, _⟩ => by show n.val = if (4194304 : Nat) = 1 then 0 else n.val; rw [if_neg (by decide)]
    | ⟨1, _⟩ => by show 0 = if (1 : Nat) = 1 then 0 else k.val; rw [if_pos rfl])

/-! ## The reductions -/

/-- The host's sum along a row, from a stored zero. -/
theorem rowSum_apply (y : (⟨S4194304x10, .f32⟩ : BufTy).Contents (Elt Ideal)) (n : Fin 4194304) :
    Host.reduceAdd y (constant (F := Ideal) S_ .f32 0x00000000#32) reducesTo_S4194304x10_S4194304_d1 h_S_ (ix1 n)
      = ∑ k : Fin 10, y (ix2 n k) := by
  refine (Ideal.hostReduceAdd_single reducesTo_S4194304x10_S4194304_d1 (by decide) y _ (ix1 n)).trans ?_
  rw [constant_apply, Ideal.ofBits_zero_f32, zero_add]
  exact Finset.sum_congr rfl fun k _ => congrArg y (funext fun a => Fin.ext (by
    match a with
    | ⟨0, _⟩ => rfl
    | ⟨1, _⟩ => rfl))

/-- The host's sum over all rows, from a stored zero. -/
theorem totalSum_apply (v : (⟨S4194304, .f32⟩ : BufTy).Contents (Elt Ideal)) (i : S_.Idx) :
    Host.reduceAdd v (constant (F := Ideal) S_ .f32 0x00000000#32) reducesTo_S4194304_S_d0 h_S_ i
      = ∑ j : S4194304.Idx, v j := by
  refine (Ideal.hostReduceAdd_total reducesTo_S4194304_S_d0 (fun b => b.elim0) v _ i).trans ?_
  rw [constant_apply, Ideal.ofBits_zero_f32, zero_add]

/-- Each row's maximum is the row's running maximum from minus infinity. -/
theorem rowMaxes_apply (x : (⟨S4194304x10, .f32⟩ : BufTy).Contents (Elt Ideal)) (n : Fin 4194304) :
    rowMaxes x (ix1 n) = rowMax fun k => x (ix2 n k) := by
  unfold rowMaxes
  rw [maximumf_apply]
  have hb : broadcastInDim S4194304 ![] bcast_S_S4194304 (constant (F := Ideal) S_ .f32 0xFF800000#32) (ix1 n) = ⊥ := by
    rw [broadcastInDim_apply _ bcast_S_S4194304 _ (ix1 n) ix0 (fun a => a.elim0), constant_apply,
      Cert.Consts.ofBits_neg_inf]
  rw [hb, max_eq_right bot_le]
  refine (Host.reduce_eq_fold_single (α := EReal) (FloatOps.maximumf (F := Ideal) (φ := .f32)) x
    (constant (F := Ideal) S_ .f32 0xFF800000#32) reducesTo_S4194304x10_S4194304_d1 (by decide) h_S_ (ix1 n)).trans ?_
  rw [constant_apply, Cert.Consts.ofBits_neg_inf]
  unfold rowMax
  refine congrArg (fun f => (Finset.univ : Finset (Fin 10)).fold max ⊥ f) (funext fun k => ?_)
  exact congrArg x (funext fun a => Fin.ext (by
    match a with
    | ⟨0, _⟩ => rfl
    | ⟨1, _⟩ => rfl))

/-! ## The stages -/

theorem shifted_apply (x : (⟨S4194304x10, .f32⟩ : BufTy).Contents (Elt Ideal)) (n : Fin 4194304) (k : Fin 10) :
    shifted x (ix2 n k) = x (ix2 n k) - rowMax fun k' => x (ix2 n k') := by
  unfold shifted
  rw [subf_apply, wide_apply, col_apply, rowMaxes_apply]

theorem logSums_apply (x : (⟨S4194304x10, .f32⟩ : BufTy).Contents (Elt Ideal)) (n : Fin 4194304) :
    logSums x (ix2 n (0 : Fin 1)) = rowLog fun k => x (ix2 n k) := by
  unfold logSums
  rw [hostLog_apply, col_apply, rowSum_apply]
  unfold rowLog
  refine congrArg Ideal.log (Finset.sum_congr rfl fun k _ => ?_)
  rw [hostExp_apply, shifted_apply]

theorem logSoftmax_apply (x : (⟨S4194304x10, .f32⟩ : BufTy).Contents (Elt Ideal)) (n : Fin 4194304) (k : Fin 10) :
    logSoftmax x (ix2 n k) = (x (ix2 n k) - rowMax fun k' => x (ix2 n k')) - rowLog fun k' => x (ix2 n k') := by
  unfold logSoftmax
  rw [subf_apply, shifted_apply, wide_apply, logSums_apply]

/-- A row's loss in the reference is the reference's arrangement of it. -/
theorem rowLosses_apply (x t : (⟨S4194304x10, .f32⟩ : BufTy).Contents (Elt Ideal)) (n : Fin 4194304) :
    rowLosses x t (ix1 n) = refRow (fun k => x (ix2 n k)) (fun k => t (ix2 n k)) := by
  unfold rowLosses
  rw [hostNeg_apply, rowSum_apply]
  unfold refRow
  refine congrArg Neg.neg (Finset.sum_congr rfl fun k _ => ?_)
  rw [mulf_apply, logSoftmax_apply]

/-- The reference's result: the sum of the row losses over all rows, divided by the number of rows. -/
theorem meanLoss_apply (x t : (⟨S4194304x10, .f32⟩ : BufTy).Contents (Elt Ideal)) (i : S_.Idx) :
    meanLoss x t i
      = Ideal.div (∑ n : Fin 4194304, refRow (fun k => x (ix2 n k)) (fun k => t (ix2 n k)))
          (Ideal.ofBits .f32 0x4A800000#32) := by
  unfold meanLoss
  rw [hostDiv_apply, totalSum_apply, constant_apply]
  refine div_congr ?_
  exact Fintype.sum_equiv ⟨fun j : S4194304.Idx => (j 0 : Fin 4194304), fun n => ix1 n, fun j => (eq_ix1 j).symm, fun n => rfl⟩
    _ _ fun j => (congrArg (rowLosses x t) (eq_ix1 j)).trans (rowLosses_apply x t (j 0))

end Cert.ReferenceIdeal.RefValue

end
-- ==== Proof.Finite.lean ====
/-
  The precondition, read: every entry of both argument arrays is a real number.

  The precondition is printed as a program: for each array, `all (|x| < +inf)`, and the two answers joined by `and`. An
  `all` that answers 1 had a 1 at every index; there the comparison says `max x (-x) < ⊤` on the extended reals, which
  excludes both infinities (the absolute value of either is `⊤`), so `x` is a real.
-/
import proofs.«166837_j1967095021605_1_alg».proof.Pre_finite_inputs
import proofs.«166837_j1967095021605_1_alg».proof.Proof.Consts
import Idealize.ShloMosaic.Lib.ReduceAll
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.Finite

open Cert.Pre_finite_inputs Cert.Pre_finite_inputs.Facts

/-- The rank-zero shape has one index. -/
instance : Subsingleton S_.Idx := ⟨fun a b => funext fun d => d.elim0⟩

/-- A one-bit answer is 1 exactly when the Boolean it encodes is true. -/
theorem ofBool_eq_one_iff (b : Bool) : BitVec.ofBool b = 1#1 ↔ b = true := by cases b <;> decide

/-- An extended real whose absolute value is below plus infinity is a real. -/
theorem real_of_abs_lt_top (x : EReal) (h : Ideal.cmp .olt (max x (-x)) ⊤ = 1#1) : ∃ r : ℝ, x = (r : EReal) := by
  have hlt : max x (-x) < ⊤ := by
    have hb : decide (max x (-x) < ⊤) = true := (ofBool_eq_one_iff _).1 h
    exact of_decide_eq_true hb
  induction x using EReal.rec with
  | bot => simp at hlt
  | top => simp at hlt
  | coe r => exact ⟨r, rfl⟩

/-- One array: if `all (|x| < +inf)` answers 1, every entry of `x` is a real. -/
theorem real_of_all [Facts] (x : FVec Ideal S4194304x10 .f32)
    (h : Host.reduce IntOp.andi
        (cmpf .olt (Host.absf x) (broadcastInDim S4194304x10 ![] bcast_S_S4194304x10 (constant (F := Ideal) S_ .f32 0x7F800000#32)))
        (constantI S_ 1 1#1) reducesTo_S4194304x10_S_d0_1 h_S_ ix0 = 1#1)
    (i : S4194304x10.Idx) : ∃ r : ℝ, x i = (r : EReal) := by
  have e := Host.reduce_andi_all _ _ reducesTo_S4194304x10_S_d0_1 h_S_ ix0 h i
  rw [cmpf_apply, Ideal.cmpf_def,
    broadcastInDim_apply _ bcast_S_S4194304x10 _ i ix0 (fun a => a.elim0), constant_apply,
    Cert.Consts.ofBits_pos_inf] at e
  exact real_of_abs_lt_top (x i) e

/-- THE PRECONDITION READ: both arrays hold reals only. -/
theorem reals_of_pre [Facts] (x t : FVec Ideal S4194304x10 .f32)
    (h : Cert.Pre_finite_inputs.fn (F := Ideal) x t = fun _ => 1#1) :
    (∀ i, ∃ r : ℝ, x i = (r : EReal)) ∧ (∀ i, ∃ r : ℝ, t i = (r : EReal)) := by
  have h0 := congrFun h ix0
  unfold Cert.Pre_finite_inputs.fn at h0
  obtain ⟨hx, ht⟩ := IntOp.andi_eq_one.1 h0
  exact ⟨real_of_all x hx, real_of_all t ht⟩

end Cert.Finite

end
-- ==== Proof.Bridge.lean ====
/-
  The two results are one number.

  Write `ℓ n` for the loss of row `n` of the argument arrays in the kernel's arrangement, `ℓ' n` in the reference's.
    * The kernel returns `(∑_{t < 1024} ∑_{r < 4096} ℓ (4096 t + r)) · 2^-22`: the block at grid point `t` is rows
      `4096 t … 4096 t + 4095` of each array. Every row is `4096 t + r` for exactly one pair `(t, r)`, and a sum on the
      extended reals may be regrouped freely, so this is `(∑_n ℓ n) · 2^-22`.
    * The reference returns `(∑_n ℓ' n) / 2^22`. Dividing by 2^22 is multiplying by 2^-22, on every extended real.
    * Under the precondition every entry is a real, and on rows of reals `ℓ' n = ℓ n` (Proof/RowLoss.lean).
-/
import proofs.«166837_j1967095021605_1_alg».proof.Proof.KernelValue
import proofs.«166837_j1967095021605_1_alg».proof.Proof.RefValue
import proofs.«166837_j1967095021605_1_alg».proof.Proof.Finite

noncomputable section

open Idealize.ShloMosaic Idealize.ShloMosaic.TcCoe Idealize.SL.Sem Idealize.ShloMosaic.ValueIdx

namespace Cert.Bridge

open Cert.RowLoss

/-- Row `4096 t + r` of the arrays, for grid point `t` and row `r` of its block: every row exactly once. -/
def rowEquiv : Fin 1024 × Fin 4096 ≃ Fin 4194304 where
  toFun p := ⟨4096 * p.1.val + p.2.val, by have := p.1.isLt; have := p.2.isLt; omega⟩
  invFun n := (⟨n.val / 4096, by have := n.isLt; omega⟩, ⟨n.val % 4096, Nat.mod_lt _ (by decide)⟩)
  left_inv p := by
    have h1 := p.1.isLt
    have h2 := p.2.isLt
    refine Prod.ext (Fin.ext ?_) (Fin.ext ?_)
    · show (4096 * p.1.val + p.2.val) / 4096 = p.1.val
      omega
    · show (4096 * p.1.val + p.2.val) % 4096 = p.2.val
      omega
  right_inv n := Fin.ext (by
    show 4096 * (n.val / 4096) + n.val % 4096 = n.val
    omega)

/-- A sum over all rows is the sum over grid points of the sums over the rows of each block. -/
theorem sum_rows (g : Fin 4194304 → EReal) : ∑ n, g n = ∑ t : Fin 1024, ∑ r : Fin 4096, g (rowEquiv (t, r)) := by
  rw [← Fintype.sum_prod_type (f := fun p : Fin 1024 × Fin 4096 => g (rowEquiv p))]
  exact (Fintype.sum_equiv rowEquiv _ _ fun _ => rfl).symm

/-- On arrays of reals the reference's arrangement of a row's loss is the kernel's. -/
theorem rows_agree (x w : (⟨2, ![4194304, 10]⟩ : Shape).Idx → EReal) (hx : ∀ i, ∃ r : ℝ, x i = (r : EReal))
    (hw : ∀ i, ∃ r : ℝ, w i = (r : EReal)) (n : Fin 4194304) :
    refRow (fun k => x (ix2 n k)) (fun k => w (ix2 n k)) = kernelRow (fun k => x (ix2 n k)) (fun k => w (ix2 n k)) := by
  choose X hX using hx
  choose W hW using hw
  have e1 : (fun k : Fin 10 => x (ix2 n k)) = fun k => ((X (ix2 n k) : ℝ) : EReal) := funext fun k => hX _
  have e2 : (fun k : Fin 10 => w (ix2 n k)) = fun k => ((W (ix2 n k) : ℝ) : EReal) := funext fun k => hW _
  rw [e1, e2]
  exact refRow_eq_kernelRow _ _

/-! ## The kernel's total over the arrays' rows -/

section Kernel

open Cert.KernelIdeal Cert.KernelIdeal.Gen

variable (m : (ℓ : Loc nD τ sig) → Buf (Elt Ideal) ℓ)

/-- Where the input windows' index maps send a grid point: block `(t, 0)`, for both inputs. -/
theorem index_facts : ∀ t : Fin cfg0.N,
    win0_0.index t (0 : Fin 2) = t.val ∧ win0_0.index t (1 : Fin 2) = 0
      ∧ win0_1.index t (0 : Fin 2) = t.val ∧ win0_1.index t (1 : Fin 2) = 0 :=
  (by decide +kernel : ∀ t : Fin grid0.N,
    win0_0.index t (0 : Fin 2) = t.val ∧ win0_0.index t (1 : Fin 2) = 0
      ∧ win0_1.index t (0 : Fin 2) = t.val ∧ win0_1.index t (1 : Fin 2) = 0)

/-- The logits' block at grid point `t` is rows `4096 t + r` of the logits. -/
theorem logits_block (c : Dev nD) (t : Fin 1024) (h : t.val < cfg0.N) (r : Fin 4096) (k : Fin 10) :
    (iblk m c 0 ⟨t.val, h⟩ : Vec Ideal S4096x10 .f32) (ix2 r k)
      = m ((c.tc : Thread nD τ).loc main_arg0) (ix2 (rowEquiv (t, r)) k) := by
  unfold iblk
  rw [View.read_apply]
  show V m c main_arg0 _ = m (c.tc.loc main_arg0) _
  refine congrArg (m (c.tc.loc main_arg0)) (funext fun a => Fin.ext ?_)
  match a with
  | ⟨0, _⟩ =>
    show win0_0.index ⟨t.val, h⟩ 0 * 4096 + 1 * r.val = 4096 * t.val + r.val
    rw [(index_facts ⟨t.val, h⟩).1]
    show t.val * 4096 + 1 * r.val = 4096 * t.val + r.val
    omega
  | ⟨1, _⟩ =>
    show win0_0.index ⟨t.val, h⟩ 1 * 10 + 1 * k.val = k.val
    rw [(index_facts ⟨t.val, h⟩).2.1]
    omega

/-- The weights' block likewise. -/
theorem weights_block (c : Dev nD) (t : Fin 1024) (h : t.val < cfg0.N) (r : Fin 4096) (k : Fin 10) :
    (iblk m c 1 ⟨t.val, h⟩ : Vec Ideal S4096x10 .f32) (ix2 r k)
      = m ((c.tc : Thread nD τ).loc main_arg1) (ix2 (rowEquiv (t, r)) k) := by
  unfold iblk
  rw [View.read_apply]
  show V m c main_arg1 _ = m (c.tc.loc main_arg1) _
  refine congrArg (m (c.tc.loc main_arg1)) (funext fun a => Fin.ext ?_)
  match a with
  | ⟨0, _⟩ =>
    show win0_1.index ⟨t.val, h⟩ 0 * 4096 + 1 * r.val = 4096 * t.val + r.val
    rw [(index_facts ⟨t.val, h⟩).2.2.1]
    show t.val * 4096 + 1 * r.val = 4096 * t.val + r.val
    omega
  | ⟨1, _⟩ =>
    show win0_1.index ⟨t.val, h⟩ 1 * 10 + 1 * k.val = k.val
    rw [(index_facts ⟨t.val, h⟩).2.2.2]
    omega

/-- The loss of row `n` of the kernel's argument arrays, in the kernel's arrangement. -/
def rowLoss (c : Dev nD) (n : Fin 4194304) : EReal :=
  kernelRow (fun k => m ((c.tc : Thread nD τ).loc main_arg0) (ix2 n k))
    (fun k => m ((c.tc : Thread nD τ).loc main_arg1) (ix2 n k))

/-- A block's loss is the sum of the losses of its rows of the arrays. -/
theorem blockLossN_eq (c : Dev nD) (t : Fin 1024) :
    Accumulate.blockLossN m c t.val = ∑ r : Fin 4096, rowLoss m c (rowEquiv (t, r)) := by
  have h : t.val < cfg0.N := by rw [show cfg0.N = 1024 from N_0]; exact t.isLt
  unfold Accumulate.blockLossN
  rw [dif_pos h]
  unfold Accumulate.blockLoss
  refine Finset.sum_congr rfl fun r _ => ?_
  unfold rowLoss
  exact congrArg₂ kernelRow (funext fun k => logits_block m c t h r k) (funext fun k => weights_block m c t h r k)

/-- THE KERNEL'S TOTAL: the sum of the losses of all rows of the arrays, times the float 2^-22. -/
theorem total_eq (c : Dev nD) :
    KernelValue.total m c = (∑ n : Fin 4194304, rowLoss m c n) * Ideal.ofBits .f32 0x34800000#32 := by
  unfold KernelValue.total
  refine congrArg (· * Ideal.ofBits .f32 0x34800000#32) ?_
  rw [sum_rows, Finset.sum_range]
  exact Finset.sum_congr rfl fun t _ => blockLossN_eq m c t

end Kernel

end Cert.Bridge

end
-- ==== Proof.lean ====
/-
  A mean cross-entropy loss over 4194304 rows of ten logits `p` and ten weights `t`, computed two ways, is one number
  on the extended reals whenever every entry is finite.

  The kernel walks the rows in 1024 blocks of 4096. For each row it forms
      (M + log ∑_k exp (p k - M)) · (∑_k t k) - ∑_k t k · p k,        M = max_k p k,
  sums these over the block, adds the block's sum to a running total kept in a one-element output block (zeroed at the
  first block), and after the last block multiplies the total by 2^-22. The reference takes the log-softmax of every
  row, `(p k - M) - log ∑_k exp (p k - M)`, sums `t k` times it along each row, negates, sums over all rows and
  divides by 4194304 = 2^22.

  Row by row the two arrangements agree on reals, by distributing `t k` over the difference and collecting `M + log …`
  (Proof/RowLoss.lean); that step needs finite entries, which the precondition gives (Proof/Finite.lean). Everything
  across rows is regrouping of a sum, which the extended reals allow without any finiteness: the running total after
  each block is a partial sum (Proof/Accumulate.lean), the blocks are the arrays' own rows, each once (Proof/Bridge.lean),
  and dividing by 2^22 is multiplying by the float 2^-22 (Proof/Consts.lean). The kernel's scalar is read off its run in
  Proof/KernelValue.lean (one write-back of the output block, then a reshape to a scalar), the reference's off its run
  in Proof/RefRun.lean and Proof/RefValue.lean. The three frame claims are the runs themselves; the idealization
  rewrote nothing, so there is nothing to preserve.
-/
import proofs.«166837_j1967095021605_1_alg».proof.Defs
import proofs.«166837_j1967095021605_1_alg».proof.Proof.Gen.Kernel
import proofs.«166837_j1967095021605_1_alg».proof.Proof.Gen.Kernel.Skeleton
import proofs.«166837_j1967095021605_1_alg».proof.Proof.Gen.Kernel.Launch
import proofs.«166837_j1967095021605_1_alg».proof.Proof.Gen.Kernel.Points
import proofs.«166837_j1967095021605_1_alg».proof.Proof.Gen.Kernel.Frame
import proofs.«166837_j1967095021605_1_alg».proof.Proof.Gen.KernelIdeal
import proofs.«166837_j1967095021605_1_alg».proof.Proof.Gen.KernelIdeal.Skeleton
import proofs.«166837_j1967095021605_1_alg».proof.Proof.Gen.KernelIdeal.Launch
import proofs.«166837_j1967095021605_1_alg».proof.Proof.Gen.KernelIdeal.Points
import proofs.«166837_j1967095021605_1_alg».proof.Proof.Gen.KernelIdeal.Frame
import proofs.«166837_j1967095021605_1_alg».proof.Proof.Gen.ReferenceIdeal
import proofs.«166837_j1967095021605_1_alg».proof.Proof.Gen.Pre_finite_inputs
import proofs.«166837_j1967095021605_1_alg».proof.Proof.Bridge
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- On finite inputs the kernel's scaled total is the reference's mean: row by row the two arrangements of the loss
    agree, the sums over rows are one sum regrouped, and the two scalings are one map. -/
theorem algebraic : Cert.algebraic_KernelIdeal_ReferenceIdeal := by
  intro m ρ m' ρ' hpre hagree
  refine ⟨fun c => fun _ => Cert.KernelIdeal.KernelValue.total m c, Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  obtain ⟨hx, hw⟩ := Cert.Finite.reals_of_pre _ _ (hpre c)
  funext i
  show _ = Cert.KernelIdeal.KernelValue.total m c
  rw [Cert.ReferenceIdeal.RefValue.meanLoss_apply, Cert.Consts.div_rows, Cert.Bridge.total_eq]
  refine congrArg (· * Ideal.ofBits .f32 0x34800000#32) (Finset.sum_congr rfl fun n _ => ?_)
  exact Cert.Bridge.rows_agree _ _ hx hw n

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
